-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1600 : Shape := ⟨3, ![4, 2048, 1600]⟩
abbrev S1600x4800 : Shape := ⟨2, ![1600, 4800]⟩
abbrev S4800 : Shape := ⟨1, ![4800]⟩
abbrev S1600x8 : Shape := ⟨2, ![1600, 8]⟩
abbrev S8x4800 : Shape := ⟨2, ![8, 4800]⟩
abbrev S_ : Shape := ⟨0, ![]⟩

class Facts : Prop where
  bcast_S_S4x2048x1600 : S_.BroadcastsInDim S4x2048x1600 (![] : Fin 0 → Fin S4x2048x1600.rank)
  reducesTo_S4x2048x1600_S_d0_1_2 : S4x2048x1600.ReducesTo [0, 1, 2] S_
  h_S_ : 0 < S_.numel
  bcast_S_S1600x4800 : S_.BroadcastsInDim S1600x4800 (![] : Fin 0 → Fin S1600x4800.rank)
  reducesTo_S1600x4800_S_d0_1 : S1600x4800.ReducesTo [0, 1] S_
  bcast_S_S4800 : S_.BroadcastsInDim S4800 (![] : Fin 0 → Fin S4800.rank)
  reducesTo_S4800_S_d0 : S4800.ReducesTo [0] S_
  bcast_S_S1600x8 : S_.BroadcastsInDim S1600x8 (![] : Fin 0 → Fin S1600x8.rank)
  reducesTo_S1600x8_S_d0_1 : S1600x8.ReducesTo [0, 1] S_
  bcast_S_S8x4800 : S_.BroadcastsInDim S8x4800 (![] : Fin 0 → Fin S8x4800.rank)
  reducesTo_S8x4800_S_d0_1 : S8x4800.ReducesTo [0, 1] S_

variable [Facts]

def fn_part1 {F : FTy → Type} [FloatOps F] (main_arg4 : FVec F S8x4800 .f32) (main_v13 : IVec S_ 1) (main_v16 : IVec S1600x8 1) : IVec S_ 1 :=
  let main_c_5 : IVec S_ 1 := constantI S_ 1 1#1
  let main_v17 : IVec S_ 1 := (fun x v => Host.reduce IntOp.andi x v reducesTo_S1600x8_S_d0_1 h_S_) main_v16 main_c_5
  let main_v18 : IVec S_ 1 := andi main_v13 main_v17
  let main_v19 : FVec F S8x4800 .f32 := Host.absf main_arg4
  let main_cst_6 : FVec F S_ .f32 := constant S_ .f32 0x7F800000#32
  let main_v20 : FVec F S8x4800 .f32 := broadcastInDim S8x4800 ![] bcast_S_S8x4800 main_cst_6
  let main_v21 : IVec S8x4800 1 := cmpf .olt main_v19 main_v20
  let main_c_7 : IVec S_ 1 := constantI S_ 1 1#1
  let main_v22 : IVec S_ 1 := (fun x v => Host.reduce IntOp.andi x v reducesTo_S8x4800_S_d0_1 h_S_) main_v21 main_c_7
  let main_v23 : IVec S_ 1 := andi main_v18 main_v22
  main_v23

def fn {F : FTy → Type} [FloatOps F] (main_arg0 : FVec F S4x2048x1600 .f32) (main_arg1 : FVec F S1600x4800 .f32) (main_arg2 : FVec F S4800 .f32) (main_arg3 : FVec F S1600x8 .f32) (main_arg4 : FVec F S8x4800 .f32) : IVec S_ 1 :=
  let main_v0 : FVec F S4x2048x1600 .f32 := Host.absf main_arg0
  let main_cst : FVec F S_ .f32 := constant S_ .f32 0x7F800000#32
  let main_v1 : FVec F S4x2048x1600 .f32 := broadcastInDim S4x2048x1600 ![] bcast_S_S4x2048x1600 main_cst
  let main_v2 : IVec S4x2048x1600 1 := cmpf .olt main_v0 main_v1
  let main_c : IVec S_ 1 := constantI S_ 1 1#1
  let main_v3 : IVec S_ 1 := (fun x v => Host.reduce IntOp.andi x v reducesTo_S4x2048x1600_S_d0_1_2 h_S_) main_v2 main_c
  let main_v4 : FVec F S1600x4800 .f32 := Host.absf main_arg1
  let main_cst_0 : FVec F S_ .f32 := constant S_ .f32 0x7F800000#32
  let main_v5 : FVec F S1600x4800 .f32 := broadcastInDim S1600x4800 ![] bcast_S_S1600x4800 main_cst_0
  let main_v6 : IVec S1600x4800 1 := cmpf .olt main_v4 main_v5
  let main_c_1 : IVec S_ 1 := constantI S_ 1 1#1
  let main_v7 : IVec S_ 1 := (fun x v => Host.reduce IntOp.andi x v reducesTo_S1600x4800_S_d0_1 h_S_) main_v6 main_c_1
  let main_v8 : IVec S_ 1 := andi main_v3 main_v7
  let main_v9 : FVec F S4800 .f32 := Host.absf main_arg2
  let main_cst_2 : FVec F S_ .f32 := constant S_ .f32 0x7F800000#32
  let main_v10 : FVec F S4800 .f32 := broadcastInDim S4800 ![] bcast_S_S4800 main_cst_2
  let main_v11 : IVec S4800 1 := cmpf .olt main_v9 main_v10
  let main_c_3 : IVec S_ 1 := constantI S_ 1 1#1
  let main_v12 : IVec S_ 1 := (fun x v => Host.reduce IntOp.andi x v reducesTo_S4800_S_d0 h_S_) main_v11 main_c_3
  let main_v13 : IVec S_ 1 := andi main_v8 main_v12
  let main_v14 : FVec F S1600x8 .f32 := Host.absf main_arg3
  let main_cst_4 : FVec F S_ .f32 := constant S_ .f32 0x7F800000#32
  let main_v15 : FVec F S1600x8 .f32 := broadcastInDim S1600x8 ![] bcast_S_S1600x8 main_cst_4
  let main_v16 : IVec S1600x8 1 := cmpf .olt main_v14 main_v15
  fn_part1 (F := F) main_arg4 main_v13 main_v16
-- ==== Kernel.lean ====
abbrev S4x2048x1600 : Shape := ⟨3, ![4, 2048, 1600]⟩
abbrev S1600x4800 : Shape := ⟨2, ![1600, 4800]⟩
abbrev S4800 : Shape := ⟨1, ![4800]⟩
abbrev S1600x8 : Shape := ⟨2, ![1600, 8]⟩
abbrev S8x4800 : Shape := ⟨2, ![8, 4800]⟩
abbrev S8192x1600 : Shape := ⟨2, ![8192, 1600]⟩
abbrev S_ : Shape := ⟨0, ![]⟩
abbrev S1x4800 : Shape := ⟨2, ![1, 4800]⟩
abbrev S8192x4800 : Shape := ⟨2, ![8192, 4800]⟩
abbrev S256x1600 : Shape := ⟨2, ![256, 1600]⟩
abbrev S256x4800 : Shape := ⟨2, ![256, 4800]⟩
abbrev S4x2048x4800 : Shape := ⟨3, ![4, 2048, 4800]⟩

abbrev nBuf : Space → Nat
  | .hbm => 15
  | .vmem => 6
  | .smem => 0
  | _ => 0

abbrev bufTy : (tb : Table) → Fin (tcTables nBuf tb) → BufTy
  | .hbm, ⟨0, _⟩ => ⟨S4x2048x1600, .f32⟩
  | .hbm, ⟨1, _⟩ => ⟨S1600x4800, .f32⟩
  | .hbm, ⟨2, _⟩ => ⟨S4800, .f32⟩
  | .hbm, ⟨3, _⟩ => ⟨S1600x8, .f32⟩
  | .hbm, ⟨4, _⟩ => ⟨S8x4800, .f32⟩
  | .hbm, ⟨5, _⟩ => ⟨S8192x1600, .f32⟩
  | .hbm, ⟨6, _⟩ => ⟨S1600x4800, .f32⟩
  | .hbm, ⟨7, _⟩ => ⟨S_, .f32⟩
  | .hbm, ⟨8, _⟩ => ⟨S1600x4800, .f32⟩
  | .hbm, ⟨9, _⟩ => ⟨S1600x4800, .f32⟩
  | .hbm, ⟨10, _⟩ => ⟨S1600x4800, .f32⟩
  | .hbm, ⟨11, _⟩ => ⟨S1600x4800, .bf16⟩
  | .hbm, ⟨12, _⟩ => ⟨S1x4800, .f32⟩
  | .hbm, ⟨13, _⟩ => ⟨S8192x4800, .f32⟩
  | .hbm, ⟨14, _⟩ => ⟨S4x2048x4800, .f32⟩
  | .local _ .vmem, ⟨0, _⟩ => ⟨S256x1600, .f32⟩
  | .local _ .vmem, ⟨1, _⟩ => ⟨S256x1600, .f32⟩
  | .local _ .vmem, ⟨2, _⟩ => ⟨S1600x4800, .bf16⟩
  | .local _ .vmem, ⟨3, _⟩ => ⟨S1x4800, .f32⟩
  | .local _ .vmem, ⟨4, _⟩ => ⟨S256x4800, .f32⟩
  | .local _ .vmem, ⟨5, _⟩ => ⟨S256x4800, .f32⟩
  | _, _ => ⟨S4x2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1600x4800 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x1600_S8192x1600 : S4x2048x1600.ShapeCasts S8192x1600
  bcast_S_S1600x4800 : S_.BroadcastsInDim S1600x4800 (![] : Fin 0 → Fin S1600x4800.rank)
  bitsLt_bf16_f32 : FTy.bits .bf16 < FTy.bits .f32
  shapeCasts_S4800_S1x4800 : S4800.ShapeCasts S1x4800
  inb_S256x1600_S256x1600_0_0 : ∀ a, (![0, 0] : Fin 2 → Nat) a + S256x1600.size a ≤ S256x1600.size a
  h_S256x1600 : 0 < S256x1600.numel
  shapeCasts_S256x1600_S256x1600 : S256x1600.ShapeCasts S256x1600
  inb_S1600x4800_S1600x4800_0_0 : ∀ a, (![0, 0] : Fin 2 → Nat) a + S1600x4800.size a ≤ S1600x4800.size a
  h_S1600x4800 : 0 < S1600x4800.numel
  shapeCasts_S1600x4800_S1600x4800 : S1600x4800.ShapeCasts S1600x4800
  inb_S1x4800_S1x4800_0_0 : ∀ a, (![0, 0] : Fin 2 → Nat) a + S1x4800.size a ≤ S1x4800.size a
  h_S1x4800 : 0 < S1x4800.numel
  shapeCasts_S1x4800_S1x4800 : S1x4800.ShapeCasts S1x4800
  broadcasts_S1x4800_S256x4800 : S1x4800.Broadcasts S256x4800
  inb_S256x4800_S256x4800_0_0 : ∀ a, (![0, 0] : Fin 2 → Nat) a + S256x4800.size a ≤ S256x4800.size a
  h_S256x4800 : 0 < S256x4800.numel
  shapeCasts_S8192x4800_S4x2048x4800 : S8192x4800.ShapeCasts S4x2048x4800
  dot_S1600x8_S8x4800_S1600x4800_1_0_0_1_n_n_wf : DotDims.WF S1600x8 S8x4800 S1600x4800 [1] [0] [0] [1] [] []
  dot_S256x1600_S1600x4800_S256x4800_1_0_0_1_n_n_wf : DotDims.WF S256x1600 S1600x4800 S256x4800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1600.size a ≤ S8192x1600.size a
  hwx0_0 : ∀ i : grid0.Coords, EltTy.bits .f32 = 32 ∨ (Rect.block (s := S8192x1600) S256x1600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1600x4800.size a ≤ S1600x4800.size a
  hwx0_1 : ∀ i : grid0.Coords, EltTy.bits .bf16 = 32 ∨ (Rect.block (s := S1600x4800) S1600x4800.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4800.size a ≤ S1x4800.size a
  hwx0_2 : ∀ i : grid0.Coords, EltTy.bits .f32 = 32 ∨ (Rect.block (s := S1x4800) S1x4800.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4800.size a ≤ S8192x4800.size a
  hwx0_3 : ∀ i : grid0.Coords, EltTy.bits .f32 = 32 ∨ (Rect.block (s := S8192x4800) S256x4800.size (cc0_transform_3 i) (hinb0_3 i)).WholeWords (EltTy.packing .f32)

variable [Facts₀]

def dot_S1600x8_S8x4800_S1600x4800_1_0_0_1_n_n : DotDims S1600x8 S8x4800 S1600x4800 where
  lhsContracting := [1]
  rhsContracting := [0]
  lhsNonContracting := [0]
  rhsNonContracting := [1]
  lhsBatch := []
  rhsBatch := []
  wf := dot_S1600x8_S8x4800_S1600x4800_1_0_0_1_n_n_wf
def dot_S256x1600_S1600x4800_S256x4800_1_0_0_1_n_n : DotDims S256x1600 S1600x4800 S256x4800 where
  lhsContracting := [1]
  rhsContracting := [0]
  lhsNonContracting := [0]
  rhsNonContracting := [1]
  lhsBatch := []
  rhsBatch := []
  wf := dot_S256x1600_S1600x4800_S256x4800_1_0_0_1_n_n_wf

abbrev win0_0 : Pipeline.Window sig grid0 :=
  Pipeline.Window.ofSpec (Memref.whole main_v0) S256x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1600x4800.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4800.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x4800.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1600 : Shape := ⟨3, ![4, 2048, 1600]⟩
abbrev S1600x4800 : Shape := ⟨2, ![1600, 4800]⟩
abbrev S4800 : Shape := ⟨1, ![4800]⟩
abbrev S1600x8 : Shape := ⟨2, ![1600, 8]⟩
abbrev S8x4800 : Shape := ⟨2, ![8, 4800]⟩
abbrev S4x2048x4800 : Shape := ⟨3, ![4, 2048, 4800]⟩
abbrev S1x1x4800 : Shape := ⟨3, ![1, 1, 4800]⟩
abbrev S4x2048x8 : Shape := ⟨3, ![4, 2048, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1600, .f32⟩
  | .hbm, ⟨1, _⟩ => ⟨S1600x4800, .f32⟩
  | .hbm, ⟨2, _⟩ => ⟨S4800, .f32⟩
  | .hbm, ⟨3, _⟩ => ⟨S1600x8, .f32⟩
  | .hbm, ⟨4, _⟩ => ⟨S8x4800, .f32⟩
  | .hbm, ⟨5, _⟩ => ⟨S4x2048x4800, .f32⟩
  | .hbm, ⟨6, _⟩ => ⟨S1x1x4800, .f32⟩
  | .hbm, ⟨7, _⟩ => ⟨S4x2048x4800, .f32⟩
  | .hbm, ⟨8, _⟩ => ⟨S4x2048x4800, .f32⟩
  | .hbm, ⟨9, _⟩ => ⟨S4x2048x8, .f32⟩
  | .hbm, ⟨10, _⟩ => ⟨S4x2048x4800, .f32⟩
  | .hbm, ⟨11, _⟩ => ⟨S_, .f32⟩
  | .hbm, ⟨12, _⟩ => ⟨S4x2048x4800, .f32⟩
  | .hbm, ⟨13, _⟩ => ⟨S4x2048x4800, .f32⟩
  | .hbm, ⟨14, _⟩ => ⟨S4x2048x4800, .f32⟩
  | _, _ => ⟨S4x2048x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4800_S1x1x4800_2 : S4800.BroadcastsInDim S1x1x4800 (![2] : Fin 1 → Fin S1x1x4800.rank)
  bcast_S1x1x4800_S4x2048x4800_0_1_2 : S1x1x4800.BroadcastsInDim S4x2048x4800 (![0, 1, 2] : Fin 3 → Fin S4x2048x4800.rank)
  bcast_S_S4x2048x4800 : S_.BroadcastsInDim S4x2048x4800 (![] : Fin 0 → Fin S4x2048x4800.rank)
  dot_S4x2048x1600_S1600x4800_S4x2048x4800_2_0_01_1_n_n_wf : DotDims.WF S4x2048x1600 S1600x4800 S4x2048x4800 [2] [0] [0, 1] [1] [] []
  dot_S4x2048x1600_S1600x8_S4x2048x8_2_0_01_1_n_n_wf : DotDims.WF S4x2048x1600 S1600x8 S4x2048x8 [2] [0] [0, 1] [1] [] []
  dot_S4x2048x8_S8x4800_S4x2048x4800_2_0_01_1_n_n_wf : DotDims.WF S4x2048x8 S8x4800 S4x2048x4800 [2] [0] [0, 1] [1] [] []

variable [Facts₀]

def dot_S4x2048x1600_S1600x4800_S4x2048x4800_2_0_01_1_n_n : DotDims S4x2048x1600 S1600x4800 S4x2048x4800 where
  lhsContracting := [2]
  rhsContracting := [0]
  lhsNonContracting := [0, 1]
  rhsNonContracting := [1]
  lhsBatch := []
  rhsBatch := []
  wf := dot_S4x2048x1600_S1600x4800_S4x2048x4800_2_0_01_1_n_n_wf
def dot_S4x2048x1600_S1600x8_S4x2048x8_2_0_01_1_n_n : DotDims S4x2048x1600 S1600x8 S4x2048x8 where
  lhsContracting := [2]
  rhsContracting := [0]
  lhsNonContracting := [0, 1]
  rhsNonContracting := [1]
  lhsBatch := []
  rhsBatch := []
  wf := dot_S4x2048x1600_S1600x8_S4x2048x8_2_0_01_1_n_n_wf
def dot_S4x2048x8_S8x4800_S4x2048x4800_2_0_01_1_n_n : DotDims S4x2048x8 S8x4800 S4x2048x4800 where
  lhsContracting := [2]
  rhsContracting := [0]
  lhsNonContracting := [0, 1]
  rhsNonContracting := [1]
  lhsBatch := []
  rhsBatch := []
  wf := dot_S4x2048x8_S8x4800_S4x2048x4800_2_0_01_1_n_n_wf

class Facts : Prop extends Facts₀ where

variable [Facts]
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«155694_j6158983102942_2_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.KernelBlocks.lean ====
/-
  The product array the kernel's region leaves.

  The region walks the 8192 rows of the flattened input in 32 blocks of 256 rows. At block t it multiplies the
  block's rows by the whole folded weight [1600, 4800] and adds the bias row, so the entry it stores at row y of
  the block and column j is (∑ k, x0 (256 t + y, k) · w (k, j)) + b2 (0, j): the dense layer of row 256 t + y. The
  32 blocks tile the [8192, 4800] result, whence the array after the region is the dense layer of every row.
-/
import proofs.«155694_j6158983102942_2_alg».proof.Proof.Gen.KernelIdeal.Frame
import Idealize.ShloMosaic.Lib.Pipeline.Value
import Idealize.ShloMosaic.Lib.ValueIdx
import Idealize.ShloMosaic.Lib.Tactic
import proofs.«155694_j6158983102942_2_alg».proof.Proof.LibDenseRow

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The dense layer of every row of a flat input: entry (p, j) is (∑ k, x0 (p, k) · w (k, j)) + b2 (0, j). -/
def dense (x0 : S8192x1600.Idx → EReal) (w : S1600x4800.Idx → EReal) (b2 : S1x4800.Idx → EReal) :
    S8192x4800.Idx → EReal :=
  fun i => GcnDense.entry x0 w b2 (i 0) (i 1)

/-- The dense layer at an index whose coordinates are p and j. -/
theorem dense_at (x0 : S8192x1600.Idx → EReal) (w : S1600x4800.Idx → EReal) (b2 : S1x4800.Idx → EReal)
    (p : Fin 8192) (j : Fin 4800) (i : S8192x4800.Idx) (h0 : (i 0).val = p.val) (h1 : (i 1).val = j.val) :
    dense x0 w b2 i = GcnDense.entry x0 w b2 p j := by
  have e : i = ix2 p j := funext fun a => Fin.ext (by
    match a with
    | ⟨0, _⟩ => exact h0
    | ⟨1, _⟩ => exact h1)
  subst e
  rfl

/-- The product's free axes read the result's coordinates. -/
theorem lhs_free (i : S256x4800.Idx) (q : dot_S256x1600_S1600x4800_S256x4800_1_0_0_1_n_n.contr.Idx) :
    (dot_S256x1600_S1600x4800_S256x4800_1_0_0_1_n_n.lhsIdx i q 0).val = (i 0).val := by
  unfold DotDims.lhsIdx
  rw [dif_neg (show ¬(0 : Fin S256x1600.rank) ∈ dot_S256x1600_S1600x4800_S256x4800_1_0_0_1_n_n.lhsBatch by decide), dif_pos (show (0 : Fin S256x1600.rank) ∈ dot_S256x1600_S1600x4800_S256x4800_1_0_0_1_n_n.lhsNonContracting by decide)]
  rfl
theorem rhs_free (i : S256x4800.Idx) (q : dot_S256x1600_S1600x4800_S256x4800_1_0_0_1_n_n.contr.Idx) :
    (dot_S256x1600_S1600x4800_S256x4800_1_0_0_1_n_n.rhsIdx i q 1).val = (i 1).val := by
  unfold DotDims.rhsIdx
  rw [dif_neg (show ¬(1 : Fin S1600x4800.rank) ∈ dot_S256x1600_S1600x4800_S256x4800_1_0_0_1_n_n.rhsBatch by decide), dif_pos (show (1 : Fin S1600x4800.rank) ∈ dot_S256x1600_S1600x4800_S256x4800_1_0_0_1_n_n.rhsNonContracting by decide)]
  rfl

/-- What the body stores at row r, column j of its block: the dense layer of the block's row r. The narrowing of
    the rows to bf16 before the product changes nothing on the extended reals. -/
theorem pay_apply (x0 : Vec Ideal S256x1600 .f32) (x1 : Vec Ideal S1600x4800 .bf16) (x2 : Vec Ideal S1x4800 .f32)
    (r : Fin 256) (j : Fin 4800) :
    k0_pay1 (F := Ideal) x0 x1 x2 (ix2 r j) = GcnDense.entry x0 x1 x2 r j := by
  unfold k0_pay1
  refine (GcnDense.kernel_layer_apply dot_S256x1600_S1600x4800_S256x4800_1_0_0_1_n_n rfl rfl rfl rfl lhs_free rhs_free none
    _ _ x2 shapeCasts_S1x4800_S1x4800 broadcasts_S1x4800_S256x4800 r j).trans ?_
  refine GcnDense.entry_congr _ _ _ _ _ _ r r j (fun k => ?_) (fun k => ?_) rfl
  · rw [truncf_apply, shapeCast_self]
  · rw [shapeCast_self]

/-- The printed index maps over the grid: the input rows and the output rows move with the point, the folded
    weight and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the input block at point t is row 256 t + r of the flat input. -/
theorem iblk0_apply (c : Dev nD) (t : Fin cfg0.N) (r : Fin 256) (k : Fin 1600) (p : Fin 8192)
    (hp : p.val = t.val * 256 + r.val) :
    (iblk m c 0 t : Vec Ideal S256x1600 .f32) (ix2 r k) = (V m c main_v0 : S8192x1600.Idx → EReal) (ix2 p k) := by
  obtain ⟨e0, e1, -⟩ := idx_facts t
  show V m c main_v0 (((cfg0.win 0).blk t).view.emb (ix2 r k)) = V m c main_v0 (ix2 p k)
  refine congrArg _ (funext fun a => Fin.ext ?_)
  match a with
  | ⟨0, _⟩ => show win0_0.index t (0 : Fin 2) * 256 + 1 * r.val = p.val; rw [e0, hp]; omega
  | ⟨1, _⟩ => show win0_0.index t (1 : Fin 2) * 1600 + 1 * k.val = k.val; rw [e1]; omega

/-- The weight block at every point is the whole folded weight. -/
theorem iblk1_apply (c : Dev nD) (t : Fin cfg0.N) (k : Fin 1600) (j : Fin 4800) :
    (iblk m c 1 t : Vec Ideal S1600x4800 .bf16) (ix2 k j) = (V m c main_v5 : S1600x4800.Idx → EReal) (ix2 k j) := by
  obtain ⟨-, -, e2, e3, -⟩ := idx_facts t
  show V m c main_v5 (((cfg0.win 1).blk t).view.emb (ix2 k j)) = V m c main_v5 (ix2 k j)
  refine congrArg _ (funext fun a => Fin.ext ?_)
  match a with
  | ⟨0, _⟩ => show win0_1.index t (0 : Fin 2) * 1600 + 1 * k.val = k.val; rw [e2]; omega
  | ⟨1, _⟩ => show win0_1.index t (1 : Fin 2) * 4800 + 1 * j.val = j.val; rw [e3]; omega

/-- The bias block at every point is the whole bias row. -/
theorem iblk2_apply (c : Dev nD) (t : Fin cfg0.N) (j : Fin 4800) :
    (iblk m c 2 t : Vec Ideal S1x4800 .f32) (ix2 (0 : Fin 1) j) = (V m c main_v6 : S1x4800.Idx → EReal) (ix2 (0 : Fin 1) j) := by
  obtain ⟨-, -, -, -, e4, e5, -⟩ := idx_facts t
  show V m c main_v6 (((cfg0.win 2).blk t).view.emb (ix2 (0 : Fin 1) j)) = V m c main_v6 (ix2 (0 : Fin 1) j)
  refine congrArg _ (funext fun a => Fin.ext ?_)
  match a with
  | ⟨0, _⟩ => show win0_2.index t (0 : Fin 2) * 1 + 1 * 0 = 0; rw [e4]
  | ⟨1, _⟩ => show win0_2.index t (1 : Fin 2) * 4800 + 1 * j.val = j.val; rw [e5]; omega

/-- What point t writes back is block t of the dense layer of the arrays the region finds. -/
theorem flushed_eq (c : Dev nD) (t : Fin cfg0.N) :
    (dats m 0 c).flushed 3 t
      = ((cfg0.win 3).blk t).view.read (Elt Ideal) (dense (V m c main_v0) (V m c main_v5) (V m c main_v6)) := by
  show (cfg0.win 3).cut (grid0.coords t) ((dats m 0 c).after 3 t) = _
  rw [after0_3]
  unfold out0_3
  rw [View.canon_unit_zero hz]
  simp only [View.ld_unit_zero (S := S256x1600) hz, View.ld_unit_zero (S := S1600x4800) hz,
    View.ld_unit_zero (S := S1x4800) hz]
  obtain ⟨-, -, -, -, -, -, e6, e7⟩ := idx_facts t
  funext y
  obtain ⟨r, j, rfl⟩ : ∃ (r : Fin 256) (j : Fin 4800), y = ix2 r j := ⟨y 0, y 1, eq_ix2 y⟩
  have hN : cfg0.N = 32 := N_0
  have ht : t.val < 32 := hN ▸ t.isLt
  show k0_pay1 (F := Ideal) (iblk m c 0 t) (iblk m c 1 t) (iblk m c 2 t) (ix2 r j)
    = dense (V m c main_v0) (V m c main_v5) (V m c main_v6) (((cfg0.win 3).blk t).view.emb (ix2 r j))
  refine (pay_apply _ _ _ r j).trans ?_
  refine Eq.trans ?_ (dense_at _ _ _ ⟨t.val * 256 + r.val, by omega⟩ j _ ?_ ?_).symm
  · exact GcnDense.entry_congr _ _ _ _ _ _ r _ j (fun k => iblk0_apply m c t r k _ rfl)
      (fun k => iblk1_apply m c t k j) (iblk2_apply m c t j)
  · show win0_3.index t (0 : Fin 2) * 256 + 1 * r.val = t.val * 256 + r.val; rw [e6]; omega
  · show win0_3.index t (1 : Fin 2) * 4800 + 1 * j.val = j.val; rw [e7]; omega

/-- An index of the result is in point t's block iff each coordinate is in the block's range on its axis. -/
theorem mem_blk (t : Fin cfg0.N) (i : S8192x4800.Idx) :
    i ∈ ((cfg0.win 3).blk t).view.set ↔ ∀ a : Fin 2, win0_3.index t a * S256x4800.size a ≤ (i a).val
      ∧ (i a).val < win0_3.index t a * S256x4800.size a + S256x4800.size a := by
  show i ∈ ((View.whole main_v7).slice (win0_3.rect t)).set ↔ _
  rw [View.set_slice_whole, Rect.mem_set_unit]
  exact Iff.rfl

/-- Every row of the result is in the block of the point its row number divided by 256 names. -/
theorem cover (i : S8192x4800.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 4800 := (i 1).isLt
  refine ⟨⟨(i 0).val / 256, by rw [hN]; omega⟩, flush0_3 _, ?_⟩
  rw [mem_blk]
  obtain ⟨-, -, -, -, -, -, e6, e7⟩ := idx_facts ⟨(i 0).val / 256, by rw [hN]; omega⟩
  intro a
  match a with
  | ⟨0, _⟩ =>
    show win0_3.index _ (0 : Fin 2) * 256 ≤ (i 0).val ∧ (i 0).val < win0_3.index _ (0 : Fin 2) * 256 + 256
    rw [e6]; show (i 0).val / 256 * 256 ≤ (i 0).val ∧ (i 0).val < (i 0).val / 256 * 256 + 256; omega
  | ⟨1, _⟩ =>
    show win0_3.index _ (1 : Fin 2) * 4800 ≤ (i 1).val ∧ (i 1).val < win0_3.index _ (1 : Fin 2) * 4800 + 4800
    rw [e7]; omega

/-- The result array after the region is the dense layer of the arrays the region finds. -/
theorem final (c : Dev nD) :
    (dats m 0 c).arrAt 3 cfg0.N = dense (V m c main_v0) (V m c main_v5) (V m c main_v6) :=
  (dats m 0 c).arrAt_eq_of_cover 3 _ (fun t _ => flushed_eq m c t) cover

end Cert.KernelIdeal.Hand

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LoraAlgebra.lean ====
/-
  A dense layer with a low-rank correction, in two arrangements.

  For an input row x(d), weights W(d, f), a bias b(f) and two thin factors A(d, r), B(r, f) the corrected layer
  adds to the dense layer x · W + b the low-rank path ((x · A) · B) scaled by a constant c:
      (∑ d, x(d) · W(d, f) + b(f)) + (∑ r, (∑ d, x(d) · A(d, r)) · B(r, f)) · c.
  The same number is the dense layer of the FOLDED weight W + c · (A · B):
      ∑ d, x(d) · (W(d, f) + c · ∑ r, A(d, r) · B(r, f)) + b(f).
  Over the reals the two agree: distribute x(d) over the folded weight, pull c out of the sum, and reassociate
  the triple product (x · A) · B = x · (A · B). The extended reals lose distributivity at the infinities, so the
  statement there is for entries that are real numbers, which is what finite inputs are.
-/
import Idealize.ShloMosaic.PureOps.Ideal
import Idealize.ShloMosaic.Lib.ValueIdx
import proofs.«155694_j6158983102942_2_alg».proof.Proof.LibTripleSum

noncomputable section

open scoped BigOperators

namespace Cert.Lora

open Idealize.ShloMosaic Idealize.ShloMosaic.ValueIdx

/-- The two arrangements agree over the reals, for arbitrary finite index types. -/
theorem real_fold {κ ι : Type*} [Fintype κ] [Fintype ι] (x w : κ → ℝ) (a : κ → ι → ℝ) (v : ι → ℝ) (b c : ℝ) :
    (∑ d, x d * (w d + c * ∑ r, a d r * v r)) + b
      = ((∑ d, x d * w d) + b) + (∑ r, (∑ d, x d * a d r) * v r) * c := by
  rw [← TripleSum.real_sum_assoc]
  have h : ∀ d, x d * (w d + c * ∑ r, a d r * v r) = x d * w d + (x d * ∑ r, a d r * v r) * c := fun d => by ring
  simp only [h]
  rw [Finset.sum_add_distrib, ← Finset.sum_mul]
  ring

/-- The two arrangements agree over extended reals that are coercions of reals. -/
theorem ereal_fold {κ ι : Type*} [Fintype κ] [Fintype ι] (x w : κ → ℝ) (a : κ → ι → ℝ) (v : ι → ℝ) (b c : ℝ) :
    (∑ d, (x d : EReal) * ((w d : EReal) + (c : EReal) * ∑ r, (a d r : EReal) * (v r : EReal))) + (b : EReal)
      = ((∑ d, (x d : EReal) * (w d : EReal)) + (b : EReal))
          + (∑ r, (∑ d, (x d : EReal) * (a d r : EReal)) * (v r : EReal)) * (c : EReal) := by
  simp only [← EReal.coe_mul, ← TripleSum.coe_finsetSum, ← EReal.coe_add]
  exact congrArg _ (real_fold x w a v b c)

/-- The scale of the low-rank path, alpha / rank: the float 4.0. -/
def scale : EReal := Ideal.ofBits .f32 0x40800000#32

/-- The float 4.0 denotes the real 4. -/
theorem scale_eq : scale = ((4 : ℝ) : EReal) := by
  unfold scale
  simp [Ideal.ofBits, Ideal.ieee, -EReal.coe_mul]; norm_num

/-- Every entry of an array of extended reals is a real number. -/
def IsReal {S : Shape} (v : S.Idx → EReal) : Prop := ∀ j, ∃ r : ℝ, v j = (r : EReal)

section
variable (x : (⟨3, ![4, 2048, 1600]⟩ : Shape).Idx → EReal) (W : (⟨2, ![1600, 4800]⟩ : Shape).Idx → EReal)
  (b : (⟨1, ![4800]⟩ : Shape).Idx → EReal) (A : (⟨2, ![1600, 8]⟩ : Shape).Idx → EReal)
  (B : (⟨2, ![8, 4800]⟩ : Shape).Idx → EReal)

/-- Entry (i, s, f) of the corrected layer as the dense layer plus the scaled low-rank path. -/
def adapted (i : Fin 4) (s : Fin 2048) (f : Fin 4800) : EReal :=
  ((∑ d : Fin 1600, x (ix3 i s d) * W (ix2 d f)) + b (ix1 f))
    + (∑ r : Fin 8, (∑ d : Fin 1600, x (ix3 i s d) * A (ix2 d r)) * B (ix2 r f)) * scale

/-- Entry (i, s, f) of the corrected layer as the dense layer of the folded weight. -/
def folded (i : Fin 4) (s : Fin 2048) (f : Fin 4800) : EReal :=
  (∑ d : Fin 1600, x (ix3 i s d) * (W (ix2 d f) + scale * ∑ r : Fin 8, A (ix2 d r) * B (ix2 r f))) + b (ix1 f)

/-- On real entries the folded layer is the corrected layer. -/
theorem folded_eq_adapted (hx : IsReal x) (hW : IsReal W) (hb : IsReal b) (hA : IsReal A) (hB : IsReal B)
    (i : Fin 4) (s : Fin 2048) (f : Fin 4800) : folded x W b A B i s f = adapted x W b A B i s f := by
  choose xr hxr using hx
  choose Wr hWr using hW
  choose br hbr using hb
  choose Ar hAr using hA
  choose Br hBr using hB
  unfold folded adapted
  simp only [hxr, hWr, hbr, hAr, hBr, scale_eq]
  exact ereal_fold (fun d => xr (ix3 i s d)) (fun d => Wr (ix2 d f)) (fun d r => Ar (ix2 d r))
    (fun r => Br (ix2 r f)) (br (ix1 f)) 4

/-- The corrected layer as a whole array [4, 2048, 4800]. -/
def layer : (⟨3, ![4, 2048, 4800]⟩ : Shape).Idx → EReal := fun j => adapted x W b A B (j 0) (j 1) (j 2)

end

end Cert.Lora

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.KernelRun.lean ====
/-
  The kernel's result as one function of the arguments.

  Before the region the host flattens x to [8192, 1600], folds the low-rank factors into the weight,
  W + 4 · (A · B), narrows it to bf16 (no change on the extended reals) and sets the bias under a unit axis. The
  region leaves the dense layer of every flat row. After the region the host splits the rows back to
  [4, 2048, 4800]. Entry (i, s, f) of the result is therefore the dense layer of flat row 2048 i + s, which is row
  (i, s) of x, with the folded weight: ∑ d, x (i,s,d) · (W (d,f) + 4 · ∑ r, A (d,r) · B (r,f)) + b (f).
-/
import proofs.«155694_j6158983102942_2_alg».proof.Proof.KernelBlocks
import proofs.«155694_j6158983102942_2_alg».proof.Proof.LoraAlgebra
import proofs.«155694_j6158983102942_2_alg».proof.Proof.LibRegroup
import Idealize.ShloMosaic.Lib.StableHlo.Run
import Idealize.ShloMosaic.Lib.ValueLayout

noncomputable section

open scoped BigOperators
open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-- The weight the region multiplies by: W + 4 · (A · B), narrowed to bf16. -/
def foldedWeight (W : FVec Ideal S1600x4800 .f32) (A : FVec Ideal S1600x8 .f32) (B : FVec Ideal S8x4800 .f32) :
    FVec Ideal S1600x4800 .bf16 :=
  truncf .bf16 (addf W (mulf (broadcastInDim S1600x4800 ![] bcast_S_S1600x4800 (constant (F := Ideal) S_ .f32 0x40800000#32))
    (Host.dotGeneral (F := Ideal) dot_S1600x8_S8x4800_S1600x4800_1_0_0_1_n_n (some .fp32) A B))) bitsLt_bf16_f32

/-- The kernel's result: the dense layer of the flattened rows with the folded weight, split back into batches. -/
def result (x : FVec Ideal S4x2048x1600 .f32) (W : FVec Ideal S1600x4800 .f32) (b : FVec Ideal S4800 .f32)
    (A : FVec Ideal S1600x8 .f32) (B : FVec Ideal S8x4800 .f32) : FVec Ideal S4x2048x4800 .f32 :=
  shapeCast S4x2048x4800
    (dense (shapeCast S8192x1600 x shapeCasts_S4x2048x1600_S8192x1600) (foldedWeight W A B)
      (shapeCast S1x4800 b shapeCasts_S4800_S1x4800))
    shapeCasts_S8192x4800_S4x2048x4800

/-- The factors' product's free axes read the result's coordinates. -/
theorem lhs_free_fold (i : S1600x4800.Idx) (q : dot_S1600x8_S8x4800_S1600x4800_1_0_0_1_n_n.contr.Idx) :
    (dot_S1600x8_S8x4800_S1600x4800_1_0_0_1_n_n.lhsIdx i q 0).val = (i 0).val := by
  unfold DotDims.lhsIdx
  rw [dif_neg (show ¬(0 : Fin S1600x8.rank) ∈ dot_S1600x8_S8x4800_S1600x4800_1_0_0_1_n_n.lhsBatch by decide), dif_pos (show (0 : Fin S1600x8.rank) ∈ dot_S1600x8_S8x4800_S1600x4800_1_0_0_1_n_n.lhsNonContracting by decide)]
  rfl
theorem rhs_free_fold (i : S1600x4800.Idx) (q : dot_S1600x8_S8x4800_S1600x4800_1_0_0_1_n_n.contr.Idx) :
    (dot_S1600x8_S8x4800_S1600x4800_1_0_0_1_n_n.rhsIdx i q 1).val = (i 1).val := by
  unfold DotDims.rhsIdx
  rw [dif_neg (show ¬(1 : Fin S8x4800.rank) ∈ dot_S1600x8_S8x4800_S1600x4800_1_0_0_1_n_n.rhsBatch by decide), dif_pos (show (1 : Fin S8x4800.rank) ∈ dot_S1600x8_S8x4800_S1600x4800_1_0_0_1_n_n.rhsNonContracting by decide)]
  rfl

/-- Entry (k, f) of the folded weight. -/
theorem foldedWeight_apply (W : FVec Ideal S1600x4800 .f32) (A : FVec Ideal S1600x8 .f32) (B : FVec Ideal S8x4800 .f32)
    (k : Fin 1600) (f : Fin 4800) :
    foldedWeight W A B (ix2 k f) = W (ix2 k f) + Cert.Lora.scale * ∑ r : Fin 8, A (ix2 k r) * B (ix2 r f) := by
  unfold foldedWeight Cert.Lora.scale
  rw [truncf_apply, addf_apply, mulf_apply,
    broadcastInDim_apply _ bcast_S_S1600x4800 _ (ix2 k f) ix0 (fun a => a.elim0), constant_apply]
  refine congrArg (fun z => W (ix2 k f) + Ideal.ofBits .f32 0x40800000#32 * z) ?_
  simp only [Host.dotGeneral]
  refine (Ideal.dotGeneral_apply dot_S1600x8_S8x4800_S1600x4800_1_0_0_1_n_n _ _ A B (ix2 k f)).trans ?_
  exact Contract2.sum_contr_eq_sum_fin dot_S1600x8_S8x4800_S1600x4800_1_0_0_1_n_n rfl rfl rfl rfl
    lhs_free_fold rhs_free_fold A B (ix2 k f)

/-- Entry (i, s, f) of the kernel's result is the dense layer of row (i, s) with the folded weight. -/
theorem result_apply (x : FVec Ideal S4x2048x1600 .f32) (W : FVec Ideal S1600x4800 .f32) (b : FVec Ideal S4800 .f32)
    (A : FVec Ideal S1600x8 .f32) (B : FVec Ideal S8x4800 .f32) (i : Fin 4) (s : Fin 2048) (f : Fin 4800) :
    result x W b A B (ix3 i s f) = Cert.Lora.folded x W b A B i s f := by
  have hi := i.isLt
  have hs := s.isLt
  obtain ⟨p, hp⟩ : ∃ p : Fin 8192, p.val = i.val * 2048 + s.val := ⟨⟨i.val * 2048 + s.val, by omega⟩, rfl⟩
  unfold result
  rw [Regroup.shapeCast_splitFirst_apply _ shapeCasts_S8192x4800_S4x2048x4800 i s f p hp]
  show GcnDense.entry _ _ _ p f = _
  unfold GcnDense.entry Cert.Lora.folded
  rw [shapeCast_a_1a_apply]
  refine congrArg (· + b (ix1 f)) (Finset.sum_congr rfl fun k _ => ?_)
  rw [Regroup.shapeCast_mergeFirst_apply x shapeCasts_S4x2048x1600_S8192x1600 p k i s hp, foldedWeight_apply]

variable (m : (ℓ : Loc nD τ sig) → Buf (Elt Ideal) ℓ) (ρ : Dev nD → PrngReg)

/-- The flat input the region finds. -/
theorem V_v0 (c : Dev nD) :
    V m c main_v0 = shapeCast S8192x1600 (m ((c : Thread nD τ).loc main_arg0)) shapeCasts_S4x2048x1600_S8192x1600 := by
  show StableHlo.after hostOps0 (fun b => m (c, b)) (Proc.devRef .tc main_v0) = _
  after_results
  rfl

/-- The weight the region finds is the folded weight. -/
theorem V_v5 (c : Dev nD) :
    V m c main_v5 = foldedWeight (m ((c : Thread nD τ).loc main_arg1)) (m ((c : Thread nD τ).loc main_arg3))
      (m ((c : Thread nD τ).loc main_arg4)) := by
  show StableHlo.after hostOps0 (fun b => m (c, b)) (Proc.devRef .tc main_v5) = _
  after_results
  rfl

/-- The bias row the region finds. -/
theorem V_v6 (c : Dev nD) :
    V m c main_v6 = shapeCast S1x4800 (m ((c : Thread nD τ).loc main_arg2)) shapeCasts_S4800_S1x4800 := by
  show StableHlo.after hostOps0 (fun b => m (c, b)) (Proc.devRef .tc main_v6) = _
  after_results
  rfl

/-- What the host line after the region leaves in the result buffer. -/
theorem tail_eq (c : Dev nD) :
    Pipeline.afterTail₀ cfgs (dats m) 0 (V0 m) [hostOps1] c main_v8
      = result (m ((c : Thread nD τ).loc main_arg0)) (m ((c : Thread nD τ).loc main_arg1))
          (m ((c : Thread nD τ).loc main_arg2)) (m ((c : Thread nD τ).loc main_arg3)) (m ((c : Thread nD τ).loc main_arg4)) := by
  have e7 : Pipeline.withArrays (cfgs 0).spec c (V0 m c) (fun w => (dats m 0 c).arrAt w (cfgs 0).N) (Proc.devRef .tc main_v7)
      = dense (shapeCast S8192x1600 (m ((c : Thread nD τ).loc main_arg0)) shapeCasts_S4x2048x1600_S8192x1600)
          (foldedWeight (m ((c : Thread nD τ).loc main_arg1)) (m ((c : Thread nD τ).loc main_arg3)) (m ((c : Thread nD τ).loc main_arg4)))
          (shapeCast S1x4800 (m ((c : Thread nD τ).loc main_arg2)) shapeCasts_S4800_S1x4800) :=
    (Pipeline.withArrays_arr spec0 launch0.win.arr_inj c _ _ 3).trans
      ((final m c).trans (by rw [V_v0, V_v5, V_v6]))
  unfold Pipeline.afterTail₀
  show StableHlo.after hostOps1 _ (Proc.devRef .tc main_v8) = _
  after_results
  rw [e7]
  rfl

/-- The run, read: the result buffer ends at `result` of the arguments, and the arguments end unchanged. -/
theorem run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefValue.lean ====
/-
  The reference computes the corrected layer.

  Stage by stage the reference forms x · W, adds the bias spread over the batch and sequence axes, forms
  (x · A) · B, scales it by the float 4.0 and adds the two. Read at an index (i, s, f) each contraction is the sum
  over its shared coordinate and each broadcast reads the operand's one matching entry, so the result there is
  (∑ d, x (i,s,d) · W (d,f) + b (f)) + (∑ r, (∑ d, x (i,s,d) · A (d,r)) · B (r,f)) · 4.
-/
import proofs.«155694_j6158983102942_2_alg».proof.Proof.Gen.ReferenceIdeal.Read
import proofs.«155694_j6158983102942_2_alg».proof.Proof.LoraAlgebra

noncomputable section

open scoped BigOperators
open Idealize.ShloMosaic Idealize.ShloMosaic.ValueIdx

namespace Cert.ReferenceIdeal.RefValue

open Cert.ReferenceIdeal Cert.ReferenceIdeal.Read

section
variable (p : Fin 4) (s : Fin 2048) (f : Fin 4800)

theorem lhs_dense (k : Fin 1600) : lidx_main_v0 (ix3 p s f) k = ix3 p s k :=
  funext fun a => by match a with | ⟨0, _⟩ => rfl | ⟨1, _⟩ => rfl | ⟨2, _⟩ => rfl
theorem rhs_dense (k : Fin 1600) : ridx_main_v0 (ix3 p s f) k = ix2 k f :=
  funext fun a => by match a with | ⟨0, _⟩ => rfl | ⟨1, _⟩ => rfl
theorem bias_idx : idx_main_v1 (idx_main_v2 (ix3 p s f)) = ix1 f :=
  funext fun a => by match a with | ⟨0, _⟩ => rfl
theorem lhs_up (r : Fin 8) : lidx_main_v5 (ix3 p s f) r = ix3 p s r :=
  funext fun a => by match a with | ⟨0, _⟩ => rfl | ⟨1, _⟩ => rfl | ⟨2, _⟩ => rfl
theorem rhs_up (r : Fin 8) : ridx_main_v5 (ix3 p s f) r = ix2 r f :=
  funext fun a => by match a with | ⟨0, _⟩ => rfl | ⟨1, _⟩ => rfl
theorem lhs_down (r : Fin 8) (d : Fin 1600) : lidx_main_v4 (ix3 p s r) d = ix3 p s d :=
  funext fun a => by match a with | ⟨0, _⟩ => rfl | ⟨1, _⟩ => rfl | ⟨2, _⟩ => rfl
theorem rhs_down (r : Fin 8) (d : Fin 1600) : ridx_main_v4 (ix3 p s r) d = ix2 d r :=
  funext fun a => by match a with | ⟨0, _⟩ => rfl | ⟨1, _⟩ => rfl
end

/-- The reference's last stage is the corrected layer of its arguments, at every index. -/
theorem result_eq (x : (⟨S4x2048x1600, .f32⟩ : BufTy).Contents (Elt Ideal)) (W : (⟨S1600x4800, .f32⟩ : BufTy).Contents (Elt Ideal))
    (b : (⟨S4800, .f32⟩ : BufTy).Contents (Elt Ideal)) (A : (⟨S1600x8, .f32⟩ : BufTy).Contents (Elt Ideal))
    (B : (⟨S8x4800, .f32⟩ : BufTy).Contents (Elt Ideal)) :
    val_main_v8 (F := Ideal) x W b A B = Cert.Lora.layer x W b A B := by
  funext i
  obtain ⟨p, s, f, rfl⟩ : ∃ (p : Fin 4) (s : Fin 2048) (f : Fin 4800), i = ix3 p s f := ⟨i 0, i 1, i 2, eq_ix3 i⟩
  rw [val_main_v8_apply, val_main_v3_apply, val_main_v7_apply, val_main_v0_apply, val_main_v2_apply,
    val_main_v1_apply, val_main_v5_apply, val_main_v6_apply, val_main_cst_apply]
  simp only [lhs_dense, rhs_dense, bias_idx, lhs_up, rhs_up, val_main_v4_apply, lhs_down, rhs_down,
    Ideal.addf_def, Ideal.mulf_def, Ideal.ofBits_def]
  rfl

end Cert.ReferenceIdeal.RefValue

end
-- ==== Proof.FiniteEntry.lean ====
/-
  A finite float is a real number.

  The precondition compares |x| = max x (-x) with +inf, entry by entry. On the extended reals the comparison
  |x| < +inf fails exactly at the two infinities, so an entry that passes it is the coercion of a real.
-/
import Idealize.ShloMosaic.PureOps.Ideal

noncomputable section

namespace Cert.Lora

open Idealize.ShloMosaic

/-- The float pattern 0x7F800000 denotes +inf. -/
theorem ofBits_inf : Ideal.ofBits .f32 0x7F800000#32 = (⊤ : EReal) := by
  simp [Ideal.ofBits, Ideal.ieee]

/-- An extended real whose absolute value is below +inf is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

end Cert.Lora

end
-- ==== Proof.FiniteInputs.lean ====
/-
  Finite inputs are arrays of real numbers.

  The precondition is the conjunction, over the five arguments, of "every entry has |entry| < +inf". Read back: the
  conjunction being true makes each conjunct true, a conjunct is a reduction by "and" over all entries of the
  comparison, so every comparison is true, and an extended real whose absolute value is below +inf is a real.
-/
import proofs.«155694_j6158983102942_2_alg».proof.Proof.Gen.Pre_finite_inputs
import Idealize.ShloMosaic.Lib.ReduceAll
import Idealize.ShloMosaic.Lib.ValueIdx
import Idealize.ShloMosaic.Lib.Pipeline.Value
import proofs.«155694_j6158983102942_2_alg».proof.Proof.FiniteEntry
import proofs.«155694_j6158983102942_2_alg».proof.Proof.LoraAlgebra

noncomputable section

open Idealize.ShloMosaic Idealize.ShloMosaic.ValueIdx

namespace Cert.Lora

open Cert.Pre_finite_inputs

instance scalarIdxSubsingleton : Subsingleton S_.Idx := ⟨fun a b => funext fun d => d.elim0⟩

/-- One argument's test: if "all |a| < +inf" came out true, every entry of a is a real. -/
theorem isReal_of_all {S : Shape} {axes : List (Fin S.rank)} (a : FVec Ideal S .f32)
    (hb : S_.BroadcastsInDim S (![] : Fin 0 → Fin S.rank)) (hr : S.ReducesTo axes S_) (hu : 0 < S_.numel) (init : IVec S_ 1)
    (e : Host.reduce IntOp.andi (cmpf .olt (Host.absf a) (broadcastInDim S ![] hb (constant (F := Ideal) S_ .f32 0x7F800000#32)))
      init hr hu ix0 = 1#1) : IsReal a := by
  intro j
  have h := Host.reduce_andi_all _ init hr hu ix0 e j
  rw [cmpf_apply, broadcastInDim_apply _ hb _ j ix0 (fun x => x.elim0)] at h
  exact real_of_abs_lt_inf (a j) h

/-- The precondition makes all five arguments arrays of reals. -/
theorem reals_of_pre (a0 : FVec Ideal S4x2048x1600 .f32) (a1 : FVec Ideal S1600x4800 .f32) (a2 : FVec Ideal S4800 .f32)
    (a3 : FVec Ideal S1600x8 .f32) (a4 : FVec Ideal S8x4800 .f32)
    (h : fn (F := Ideal) a0 a1 a2 a3 a4 = fun _ => 1#1) :
    IsReal a0 ∧ IsReal a1 ∧ IsReal a2 ∧ IsReal a3 ∧ IsReal a4 := by
  have h0 := congrFun h ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨isReal_of_all a0 _ _ _ _ e0, isReal_of_all a1 _ _ _ _ e1, isReal_of_all a2 _ _ _ _ e2,
    isReal_of_all a3 _ _ _ _ e3, isReal_of_all a4 _ _ _ _ e4⟩

end Cert.Lora

end
-- ==== Proof.lean ====
/-
  A dense layer with a low-rank correction: the weight folded before the product against the two paths added after.

  The inputs are x : [4, 2048, 1600], a weight W : [1600, 4800], a bias b : [4800] and two thin factors
  A : [1600, 8], B : [8, 4800]; the scale of the low-rank path is 4.

  The reference computes, at (i, s, f),
      (∑ d, x (i,s,d) · W (d,f) + b (f)) + (∑ r, (∑ d, x (i,s,d) · A (d,r)) · B (r,f)) · 4.
  The kernel first folds the correction into the weight, W' = W + 4 · (A · B), flattens x to 8192 rows, and then one
  product per block of 256 rows gives the dense layer of every row with W', plus the bias row; the rows are split back
  into [4, 2048, 4800]. So at (i, s, f) it holds
      ∑ d, x (i,s,d) · (W (d,f) + 4 · ∑ r, A (d,r) · B (r,f)) + b (f).
  The two are equal over the reals: distribute x (i,s,d) over W' (d,f), pull the 4 out, and reassociate the triple
  product x · (A · B) = (x · A) · B. On the extended reals distributivity fails at the infinities, so the equality uses
  the precondition: finite inputs are arrays of real numbers, and on those every operation is the real one. The
  narrowing of x and W' to bf16 before the product is the identity on the extended reals, and the 32 row blocks tile
  the product array, so the array after the region is the dense layer at every row.

  The frames of the two kernels are the generated ones; the reference's frame is its generated run with the result
  dropped. No operation of the kernel was rewritten when it was idealized, so there is nothing to preserve.
-/
import proofs.«155694_j6158983102942_2_alg».proof.Defs
import proofs.«155694_j6158983102942_2_alg».proof.Proof.Gen.Kernel
import proofs.«155694_j6158983102942_2_alg».proof.Proof.Gen.Kernel.Skeleton
import proofs.«155694_j6158983102942_2_alg».proof.Proof.Gen.Kernel.Launch
import proofs.«155694_j6158983102942_2_alg».proof.Proof.Gen.Kernel.Points
import proofs.«155694_j6158983102942_2_alg».proof.Proof.Gen.Kernel.Frame
import proofs.«155694_j6158983102942_2_alg».proof.Proof.Gen.KernelIdeal
import proofs.«155694_j6158983102942_2_alg».proof.Proof.Gen.KernelIdeal.Skeleton
import proofs.«155694_j6158983102942_2_alg».proof.Proof.Gen.KernelIdeal.Launch
import proofs.«155694_j6158983102942_2_alg».proof.Proof.Gen.KernelIdeal.Points
import proofs.«155694_j6158983102942_2_alg».proof.Proof.Gen.KernelIdeal.Frame
import proofs.«155694_j6158983102942_2_alg».proof.Proof.Gen.ReferenceIdeal
import proofs.«155694_j6158983102942_2_alg».proof.Proof.Gen.Pre_finite_inputs
import proofs.«155694_j6158983102942_2_alg».proof.Proof.Gen.ReferenceIdeal.Run
import proofs.«155694_j6158983102942_2_alg».proof.Proof.Gen.ReferenceIdeal.Read
import proofs.«155694_j6158983102942_2_alg».proof.Proof.KernelRun
import proofs.«155694_j6158983102942_2_alg».proof.Proof.RefValue
import proofs.«155694_j6158983102942_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the corrected layer of the arguments: the reference by reading its stages at an index, the
    kernel because its folded dense layer is the corrected layer on real entries, which finite inputs are. -/
theorem algebraic : Cert.algebraic_KernelIdeal_ReferenceIdeal := by
  intro m ρ m' ρ' hpre hagree
  refine ⟨fun c => Cert.Lora.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Hand.run m ρ)
    obtain ⟨hx, hW, hb, hA, hB⟩ := Cert.Lora.reals_of_pre _ _ _ _ _ (hpre c)
    show Cert.KernelIdeal.Hand.result _ _ _ _ _ = Cert.Lora.layer _ _ _ _ _
    funext j
    obtain ⟨i, s, f, rfl⟩ : ∃ (i : Fin 4) (s : Fin 2048) (f : Fin 4800), j = ix3 i s f := ⟨j 0, j 1, j 2, eq_ix3 j⟩
    rw [Cert.KernelIdeal.Hand.result_apply]
    exact Cert.Lora.folded_eq_adapted _ _ _ _ _ hx hW hb hA hB i s f
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
